-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Kernel.Entry.lean ====
/-
  The graph-convolution kernel up to its one launch, and the blocks its windows carry.

  The program first lays the bias vector out as a 1×128 row and then launches the kernel on a grid of 25
  points.  `V` is what the device buffers hold when the launch begins: the bias row written, the four argument
  arrays untouched.  Window `w`'s block at point `t` is the part of its array the index map selects there
  (`block`): the whole feature matrix, the whole weight matrix and the bias row at every point; rows
  `400 t … 400 t + 199` and `400 t + 200 … 400 t + 399` of the adjacency matrix for the two windows that share
  that array.  An input window's staging buffer holds its block at every point, fetched there or kept from the
  point before.  The body's one branch is taken exactly at the first point.
-/
import proofs.«160612_g22643067584884_cont_sun_m_966_7_alg».proof.Proof.Gen.Kernel.Launch
import proofs.«160612_g22643067584884_cont_sun_m_966_7_alg».proof.Proof.Gen.Kernel.Skeleton
import proofs.«160612_g22643067584884_cont_sun_m_966_7_alg».proof.Proof.Gen.Kernel.Points
import Idealize.ShloMosaic.Lib.Pipeline.Frame
import Idealize.ShloMosaic.Lib.Pipeline.FrameBody
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch begins -/

/-- The device buffers after the bias vector has been laid out as a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the layout of the bias row followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Laying out the bias row writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the launch finds it. -/
def block (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether the block was fetched
    there or kept from the point before (the index map did not move), for any proof data that start from `V`
    and whose body leaves the inputs' buffers as it found them: one statement per input window. -/
theorem before0_of {c : Dev nD} (dat : Dat τ (Elt F) Unit ℕ (UR sig nD τ) ℕ cfg0 c) (hA : dat.A 0 = V m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## The body's branch -/

/-- The condition of the body's one branch, from the grid coordinates. -/
abbrev first (i : grid0.Coords) : Prop := (Scalar.cmpi .ne (Scalar.extui (Scalar.cmpi .eq (BitVec.ofNat 32 (i 0).val) 0#32)) 0#32) = 1#1
/-- It holds at the first point only. -/
theorem first_iff : ∀ t : Fin cfg0.N, first (grid0.coords t) ↔ t.val = 0 :=
  (by decide +kernel : ∀ t : Fin grid0.N, first (grid0.coords t) ↔ t.val = 0)

/-! ## The staging memrefs at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch that carries the product of the feature and weight matrices from the first point on. -/
abbrev scratch : Memref sig .tc .vmem S10000x128 .f32 := Memref.whole cc0_scratch0
/-- One staging buffer of the output window, through which its contents are stated. -/
abbrev outView : View sig .tc .vmem S400x128 .f32 := (Memref.whole cc0_stg5_0 : Memref sig .tc .vmem S400x128 .f32).view
abbrev scratchView : View sig .tc .vmem S10000x128 .f32 := scratch.view

/-- The scoped buffers the pipeline does not stage are the scratch alone. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scratch fullShare d) := by
  rw [scopedRest0_eq]; simp only [scratch, owns_whole]; try rfl

end Cert.Kernel.Frame

end
-- ==== Proof.Kernel.RunFirst.lean ====
/-
  The body at the first grid point, where its branch is taken: it multiplies the feature matrix by the weight
  matrix into the scratch, reads the product back, and stores the two half blocks of the output, each the
  maximum with zero of a 200-row band of the adjacency matrix times the product plus the bias row.
-/
import proofs.«160612_g22643067584884_cont_sun_m_966_7_alg».proof.Proof.Kernel.Entry

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's staging buffer and in the scratch at the first
    point, with the proof that the body runs from the five input buffers at their contents, the output buffer
    and the scratch at anything, to the inputs unchanged and those pieces written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : first i)
    (x0 : Vec F S10000x128 .f32) (x1 : Vec F S128x128 .f32) (x2 : Vec F S200x10000 .f32) (x3 : Vec F S200x10000 .f32) (x4 : Vec F S1x128 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.Kernel.Frame

end
-- ==== Proof.Kernel.RunLater.lean ====
/-
  The body at a later grid point, where its branch is not taken: it reads the product of the feature and weight
  matrices back from the scratch, which it leaves as it is, and stores the two half blocks of the output, each
  the maximum with zero of a 200-row band of the adjacency matrix times the product plus the bias row.
-/
import proofs.«160612_g22643067584884_cont_sun_m_966_7_alg».proof.Proof.Kernel.RunFirst

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's staging buffer at a later point, with the proof
    that the body runs from the five input buffers and the scratch at their contents, the output buffer at
    anything, to the inputs and the scratch unchanged and those pieces written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : ¬first i)
    (x0 : Vec F S10000x128 .f32) (x1 : Vec F S128x128 .f32) (x2 : Vec F S200x10000 .f32) (x3 : Vec F S200x10000 .f32) (x4 : Vec F S1x128 .f32) (xs : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.Kernel.Frame

end
-- ==== Proof.Kernel.Data.lean ====
/-
  What the kernel's buffers hold from point to point.

  The scratch is written once, at the first point, with the product of the feature and weight matrices
  (`support`), and only read afterwards; so before the first point it holds anything and before every later
  point it holds `support`.  The output window's staging buffer is stored whole at every point, in two
  half blocks (`outAt`).  The five input windows' buffers are left as found.  The two windows on the adjacency
  matrix each hold half of its share.
-/
import proofs.«160612_g22643067584884_cont_sun_m_966_7_alg».proof.Proof.Kernel.RunLater
import Idealize.ShloMosaic.Lib.Ring

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cfg0_N : cfg0.N = 25 := N_0

/-- The first grid point. -/
def t₀ : Fin cfg0.N := ⟨0, by rw [cfg0_N]; decide⟩

theorem eq_t₀ (t : Fin cfg0.N) (h : t.val = 0) : t = t₀ := Fin.ext h

/-! ## The pieces the stores leave cover their buffers -/

/-- At the first point the two half-block stores tile the output block. -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : first i)
    (x0 : Vec F S10000x128 .f32) (x1 : Vec F S128x128 .f32) (x2 : Vec F S200x10000 .f32) (x3 : Vec F S200x10000 .f32) (x4 : Vec F S1x128 .f32) (y : S400x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x128.size (by sl_kernel_rfl) y

/-- At the first point the one store into the scratch covers it. -/
theorem coverScratch (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : first i)
    (x0 : Vec F S10000x128 .f32) (x1 : Vec F S128x128 .f32) (x2 : Vec F S200x10000 .f32) (x3 : Vec F S200x10000 .f32) (x4 : Vec F S1x128 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y

/-- At a later point the two half-block stores tile the output block. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : ¬first i)
    (x0 : Vec F S10000x128 .f32) (x1 : Vec F S128x128 .f32) (x2 : Vec F S200x10000 .f32) (x3 : Vec F S200x10000 .f32) (x4 : Vec F S1x128 .f32) (xs : Vec F S10000x128 .f32) (y : S400x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x128.size (by sl_kernel_rfl) y

/-! ## The scratch and the output block, point by point -/

/-- What the first point leaves in the scratch: its one store read back. -/
def support (c : Dev nD) : Vec F S10000x128 .f32 :=
  scratchView.read (Elt F) (scratchView.writes (Elt F) scratchView.junk
    (runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scratch (Memref.isWhole_whole _) ((first_iff t₀).mpr rfl) (block m c 0 t₀) (block m c 1 t₀) (block m c 2 t₀) (block m c 3 t₀) (block m c 4 t₀)).2.1)

/-- What the body leaves in the output window's staging buffer at the first point, -/
def outFirst (c : Dev nD) (t : Fin cfg0.N) (h : t.val = 0) : Vec F S400x128 .f32 :=
  outView.read (Elt F) (outView.writes (Elt F) outView.junk
    (runFirst c (grid0.coords t) (ms0 t) (hs0 t) (ms1 t) (hs1 t) (ms2 t) (hs2 t) (ms3 t) (hs3 t) (ms4 t) (hs4 t) (ms5 t) (hs5 t) scratch (Memref.isWhole_whole _) ((first_iff t).mpr h) (block m c 0 t) (block m c 1 t) (block m c 2 t) (block m c 3 t) (block m c 4 t)).1)

/-- and at a later point, where the scratch holds `support`. -/
def outLater (c : Dev nD) (t : Fin cfg0.N) (h : ¬t.val = 0) : Vec F S400x128 .f32 :=
  outView.read (Elt F) (outView.writes (Elt F) outView.junk
    (runLater c (grid0.coords t) (ms0 t) (hs0 t) (ms1 t) (hs1 t) (ms2 t) (hs2 t) (ms3 t) (hs3 t) (ms4 t) (hs4 t) (ms5 t) (hs5 t) scratch (Memref.isWhole_whole _) (fun hf => h ((first_iff t).mp hf)) (block m c 0 t) (block m c 1 t) (block m c 2 t) (block m c 3 t) (block m c 4 t) (support m c)).1)

/-- What the body leaves in the output window's staging buffer at point `t`. -/
def outAt (c : Dev nD) (t : Fin cfg0.N) : Vec F S400x128 .f32 :=
  if h : t.val = 0 then outFirst m c t h else outLater m c t h

theorem outAt_first (c : Dev nD) (t : Fin cfg0.N) (h : t.val = 0) : outAt m c t = outFirst m c t h := dif_pos h
theorem outAt_later (c : Dev nD) (t : Fin cfg0.N) (h : ¬t.val = 0) : outAt m c t = outLater m c t h := dif_neg h

/-- The kernel's own invariant before position `n`: the scratch at anything before the first point, at
    `support` afterwards. -/
def carried (c : Dev nD) : ℕ → sProp 𝕄
  | 0 => iprop(∃ d, owns (c : Thread nD τ) scratch fullShare d)
  | _ + 1 => owns (c : Thread nD τ) scratch fullShare (support m c)

theorem carried_zero (c : Dev nD) (n : ℕ) (h : n = 0) : carried m c n = iprop(∃ d, owns (c : Thread nD τ) scratch fullShare d) := by
  subst h; rfl
theorem carried_pos (c : Dev nD) (n : ℕ) (h : n ≠ 0) : carried m c n = owns (c : Thread nD τ) scratch fullShare (support m c) := by
  cases n with
  | zero => exact absurd rfl h
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => outAt m c t
  Φ t := carried m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = carried m c t.val := by
  dsimp only [dats]; simp only [Fin.coe_castSucc]
theorem Phi_succ (c : Dev nD) (t : Fin cfg0.N) : (dats m 0 c).Φ t.succ = owns (c : Thread nD τ) scratch fullShare (support m c) := by
  dsimp only [dats]; simp only [Fin.val_succ]; rfl

theorem after0 (c : Dev nD) (t : Fin cfg0.N) : (dats m 0 c).after 0 t = block m c 0 t := by dsimp only [dats]
theorem after1 (c : Dev nD) (t : Fin cfg0.N) : (dats m 0 c).after 1 t = block m c 1 t := by dsimp only [dats]
theorem after2 (c : Dev nD) (t : Fin cfg0.N) : (dats m 0 c).after 2 t = block m c 2 t := by dsimp only [dats]
theorem after3 (c : Dev nD) (t : Fin cfg0.N) : (dats m 0 c).after 3 t = block m c 3 t := by dsimp only [dats]
theorem after4 (c : Dev nD) (t : Fin cfg0.N) : (dats m 0 c).after 4 t = block m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = block m c 0 t :=
  before0_of m (dats m 0 c) (A_eq m c 0) (after0 m c) t d
theorem before1 (c : Dev nD) (t : Fin cfg0.N) (d) : (dats m 0 c).before 1 t d = block m c 1 t :=
  before1_of m (dats m 0 c) (A_eq m c 1) (after1 m c) t d
theorem before2 (c : Dev nD) (t : Fin cfg0.N) (d) : (dats m 0 c).before 2 t d = block m c 2 t :=
  before2_of m (dats m 0 c) (A_eq m c 2) (after2 m c) t d
theorem before3 (c : Dev nD) (t : Fin cfg0.N) (d) : (dats m 0 c).before 3 t d = block m c 3 t :=
  before3_of m (dats m 0 c) (A_eq m c 3) (after3 m c) t d
theorem before4 (c : Dev nD) (t : Fin cfg0.N) (d) : (dats m 0 c).before 4 t d = block m c 4 t :=
  before4_of m (dats m 0 c) (A_eq m c 4) (after4 m c) t d

end Cert.Kernel.Frame

end
-- ==== Proof.Kernel.Body.lean ====
/-
  The body meets the proof data at every grid point: handed the five input blocks, the output buffer at
  anything and the scratch as the invariant describes it, it returns the inputs as they were, the output buffer
  at `outAt` and the scratch at `support`.
-/
import proofs.«160612_g22643067584884_cont_sun_m_966_7_alg».proof.Proof.Kernel.Data

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after the first point is `support`, whichever name the first point goes by. -/
theorem support_eq (c : Dev nD) (t : Fin cfg0.N) (h : t.val = 0) :
    scratchView.read (Elt F) (scratchView.writes (Elt F) scratchView.junk
      (runFirst c (grid0.coords t) (ms0 t) (hs0 t) (ms1 t) (hs1 t) (ms2 t) (hs2 t) (ms3 t) (hs3 t) (ms4 t) (hs4 t) (ms5 t) (hs5 t) scratch (Memref.isWhole_whole _) ((first_iff t).mpr h) (block m c 0 t) (block m c 1 t) (block m c 2 t) (block m c 3 t) (block m c 4 t)).2.1) = support m c := by
  obtain rfl := eq_t₀ t h; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, Phi_succ, Phi_castSucc,
    after0, after1, after2, after3, after4, after5]
  by_cases h : t.val = 0
  · rw [carried_zero m c _ h, outAt_first m c t h]
    unfold outFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ ((first_iff t).mpr h) (block m c 0 t) (block m c 1 t) (block m c 2 t) (block m c 3 t) (block m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro
      exact (View.read_writes_of_cover _ _ _ _ _ (coverScratch c _ _ _ _ _ _ _ _ _ _ _ _ _ _ _ _ _ _ _ _ _)).trans (support_eq m c t h)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · rw [carried_pos m c _ h, outAt_later m c t h]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hf => h ((first_iff t).mp hf)) (block m c 0 t) (block m c 1 t) (block m c 2 t) (block m c 3 t) (block m c 4 t) (support m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.Kernel.Launch.lean ====
/-
  The whole run.  The adjacency matrix is handed to the kernel through two windows, so its buffer's share is
  dealt between them, half each; the other four arrays are held whole.  With that, the pipeline's launch theorem
  for windows that share an array gives: every execution of the program terminates, each window's array ends
  at what the write-backs of the proof data make of it, and the one buffer that is no window's array — the bias
  vector — ends as the launch found it.
-/
import proofs.«160612_g22643067584884_cont_sun_m_966_7_alg».proof.Proof.Kernel.Body

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's user-algebra element: the pipeline library's alone. -/
def u₀ : UR sig nD τ := initOf (Pipeline.cells cfgs cellOf_inj) (Pipeline.launchToks cfgs cellOf_inj)

/-- The distinct buffers behind the windows' arrays, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg2) ↦{fullShare} V' main_arg2)
          ∗ (((c : Thread nD τ).loc main_arg1) ↦{fullShare} V' main_arg1) ∗ (((c : Thread nD τ).loc main_call0_v0) ↦{fullShare} V' main_call0_v0)
          ∗ (((c : Thread nD τ).loc main_v0) ↦{fullShare} V' main_v0)) := by
  unfold Pipeline.arrBufs
  exact bigSep_eq_bigSepL_of_eq [main_arg0, main_arg2, main_arg1, main_call0_v0, main_v0] (by decide) (by decide) _

/-- Each window's array at its share, spelled over the buffer behind it: the adjacency matrix's two windows hold
    its two half shares, the other windows their arrays whole. -/
theorem share0 (c : Dev nD) : (dats m 0 c).share 0 = fullShare := by unfold Dat.share; rfl
theorem arrays0 (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare} V m c main_arg0) := by
  rw [share0, show (dats m 0 c).arrAt 0 0 = (dats m 0 c).A 0 from rfl, A_eq, (arr_whole0 0).set_eq_univ]
theorem share1 (c : Dev nD) : (dats m 0 c).share 1 = fullShare := by unfold Dat.share; rfl
theorem arrays1 (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_arg2) ↦{fullShare} V m c main_arg2) := by
  rw [share1, show (dats m 0 c).arrAt 1 0 = (dats m 0 c).A 1 from rfl, A_eq, (arr_whole0 1).set_eq_univ]
theorem share2 (c : Dev nD) : (dats m 0 c).share 2 = fullShare.left := by unfold Dat.share; rfl
theorem arrays2 (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_arg1) ↦{fullShare.left} V m c main_arg1) := by
  rw [share2, show (dats m 0 c).arrAt 2 0 = (dats m 0 c).A 2 from rfl, A_eq, (arr_whole0 2).set_eq_univ]
theorem share3 (c : Dev nD) : (dats m 0 c).share 3 = fullShare.right := by unfold Dat.share; rfl
theorem arrays3 (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_arg1) ↦{fullShare.right} V m c main_arg1) := by
  rw [share3, show (dats m 0 c).arrAt 3 0 = (dats m 0 c).A 3 from rfl, A_eq, (arr_whole0 3).set_eq_univ]
theorem share4 (c : Dev nD) : (dats m 0 c).share 4 = fullShare := by unfold Dat.share; rfl
theorem arrays4 (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_call0_v0) ↦{fullShare} V m c main_call0_v0) := by
  rw [share4, show (dats m 0 c).arrAt 4 0 = (dats m 0 c).A 4 from rfl, A_eq, (arr_whole0 4).set_eq_univ]
theorem share5 (c : Dev nD) : (dats m 0 c).share 5 = fullShare := by unfold Dat.share; rfl
theorem arrays5 (c : Dev nD) :
    ((cfg0.win 5).arr.view.loc (c.tc : Thread nD τ) ↦[(cfg0.win 5).arr.view.set]{(dats m 0 c).share 5} (dats m 0 c).arrAt 5 0 : sProp 𝕄)
      = (((c : Thread nD τ).loc main_v0) ↦{fullShare} V m c main_v0) := by
  rw [share5, show (dats m 0 c).arrAt 5 0 = (dats m 0 c).A 5 from rfl, A_eq, (arr_whole0 5).set_eq_univ]

/-- The buffers behind the windows' arrays, each whole, make the windows' arrays at their shares: the adjacency
    matrix's full share is its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  rw [arrays0, arrays1, arrays2, arrays3, arrays4, arrays5]
  iintro ⟨H0, H2, H1, H4, H5⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  isplitl [H4]; · iexact H4
  iexact H5

set_option backward.isDefEq.respectTransparency.types false in
/-- Every weakly fair execution of the program terminates, with every window's array at what the proof data
    compute and the bias vector as the launch found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = carried m c 0 from rfl, carried_zero m c 0 rfl, scopedRest_scratch]
      iintro ⟨-, H⟩; iexact H)
    (hout := fun c => by
      rw [show (dats m 0 c).Φ (Fin.last cfg0.N) = carried m c (Fin.last cfg0.N).val from rfl,
        carried_pos m c _ (by rw [Fin.val_last, cfg0_N]; decide), scopedRest_scratch]
      iintro H; isplitr; · iempintro
      iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The four argument arrays end as they began: the three a window stages are inputs, which the pipeline never
    writes, and the bias vector is no window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)

end Cert.Kernel.Frame

end
-- ==== Proof.KernelIdeal.Entry.lean ====
/-
  The graph-convolution kernel up to its one launch, and the blocks its windows carry.

  The program first lays the bias vector out as a 1×128 row and then launches the kernel on a grid of 25
  points.  `V` is what the device buffers hold when the launch begins: the bias row written, the four argument
  arrays untouched.  Window `w`'s block at point `t` is the part of its array the index map selects there
  (`block`): the whole feature matrix, the whole weight matrix and the bias row at every point; rows
  `400 t … 400 t + 199` and `400 t + 200 … 400 t + 399` of the adjacency matrix for the two windows that share
  that array.  An input window's staging buffer holds its block at every point, fetched there or kept from the
  point before.  The body's one branch is taken exactly at the first point.
-/
import proofs.«160612_g22643067584884_cont_sun_m_966_7_alg».proof.Proof.Gen.KernelIdeal.Launch
import proofs.«160612_g22643067584884_cont_sun_m_966_7_alg».proof.Proof.Gen.KernelIdeal.Skeleton
import proofs.«160612_g22643067584884_cont_sun_m_966_7_alg».proof.Proof.Gen.KernelIdeal.Points
import Idealize.ShloMosaic.Lib.Pipeline.Frame
import Idealize.ShloMosaic.Lib.Pipeline.FrameBody
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the launch begins -/

/-- The device buffers after the bias vector has been laid out as a row. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the layout of the bias row followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Laying out the bias row writes none of the four argument arrays. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the launch finds it. -/
def block (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, whether the block was fetched
    there or kept from the point before (the index map did not move), for any proof data that start from `V`
    and whose body leaves the inputs' buffers as it found them: one statement per input window. -/
theorem before0_of {c : Dev nD} (dat : Dat τ (Elt F) Unit ℕ (UR sig nD τ) ℕ cfg0 c) (hA : dat.A 0 = V m c (Pipeline.arrRef spec0 0))
    (hafter : ∀ t, dat.after 0 t = block m c 0 t) (t : Fin cfg0.N) (d) : dat.before 0 t d = block m c 0 t :=
  (dat.before_in_eq_fetched 0 rfl (fun _ => rfl) (fun _ _ _ => rfl) (fun t => by rw [hafter]; unfold Dat.blockOf block; rw [hA]; try rfl) t d).trans
    (by unfold Dat.fetched Dat.blockOf block; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = block m c 1 t) (t : Fin cfg0.N) (d) : dat.before 1 t d = block m c 1 t :=
  (dat.before_in_eq_fetched 1 rfl (fun _ => rfl) (fun _ _ _ => rfl) (fun t => by rw [hafter]; unfold Dat.blockOf block; rw [hA]; try rfl) t d).trans
    (by unfold Dat.fetched Dat.blockOf block; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = block m c 2 t) (t : Fin cfg0.N) (d) : dat.before 2 t d = block m c 2 t :=
  (dat.before_in_eq_fetched 2 rfl (fun _ => rfl) (fun _ _ _ => rfl) (fun t => by rw [hafter]; unfold Dat.blockOf block; rw [hA]; try rfl) t d).trans
    (by unfold Dat.fetched Dat.blockOf block; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = block m c 3 t) (t : Fin cfg0.N) (d) : dat.before 3 t d = block m c 3 t :=
  (dat.before_in_eq_fetched 3 rfl (fun _ => rfl) (fun _ _ _ => rfl) (fun t => by rw [hafter]; unfold Dat.blockOf block; rw [hA]; try rfl) t d).trans
    (by unfold Dat.fetched Dat.blockOf block; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = block m c 4 t) (t : Fin cfg0.N) (d) : dat.before 4 t d = block m c 4 t :=
  (dat.before_in_eq_fetched 4 rfl (fun _ => rfl) (fun _ _ _ => rfl) (fun t => by rw [hafter]; unfold Dat.blockOf block; rw [hA]; try rfl) t d).trans
    (by unfold Dat.fetched Dat.blockOf block; rw [hA]; try rfl)

/-! ## The body's branch -/

/-- The condition of the body's one branch, from the grid coordinates. -/
abbrev first (i : grid0.Coords) : Prop := (Scalar.cmpi .ne (Scalar.extui (Scalar.cmpi .eq (BitVec.ofNat 32 (i 0).val) 0#32)) 0#32) = 1#1
/-- It holds at the first point only. -/
theorem first_iff : ∀ t : Fin cfg0.N, first (grid0.coords t) ↔ t.val = 0 :=
  (by decide +kernel : ∀ t : Fin grid0.N, first (grid0.coords t) ↔ t.val = 0)

/-! ## The staging memrefs at a point -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S200x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S200x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S400x128 .f32 := win0_5.stage (cfg0.slots t 5)
abbrev hs5 (t : Fin cfg0.N) : (ms5 t).IsWhole := hstage0_5 ((cfg0.slots t 5).cast nbuf0_5)
/-- The scratch that carries the product of the feature and weight matrices from the first point on. -/
abbrev scratch : Memref sig .tc .vmem S10000x128 .f32 := Memref.whole cc0_scratch0
/-- One staging buffer of the output window, through which its contents are stated. -/
abbrev outView : View sig .tc .vmem S400x128 .f32 := (Memref.whole cc0_stg5_0 : Memref sig .tc .vmem S400x128 .f32).view
abbrev scratchView : View sig .tc .vmem S10000x128 .f32 := scratch.view

/-- The scoped buffers the pipeline does not stage are the scratch alone. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scratch fullShare d) := by
  rw [scopedRest0_eq]; simp only [scratch, owns_whole]; try rfl

end Cert.KernelIdeal.Frame

end
-- ==== Proof.KernelIdeal.RunFirst.lean ====
/-
  The body at the first grid point, where its branch is taken: it multiplies the feature matrix by the weight
  matrix into the scratch, reads the product back, and stores the two half blocks of the output, each the
  maximum with zero of a 200-row band of the adjacency matrix times the product plus the bias row.
-/
import proofs.«160612_g22643067584884_cont_sun_m_966_7_alg».proof.Proof.KernelIdeal.Entry

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's staging buffer and in the scratch at the first
    point, with the proof that the body runs from the five input buffers at their contents, the output buffer
    and the scratch at anything, to the inputs unchanged and those pieces written. -/
noncomputable def runFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : first i)
    (x0 : Vec F S10000x128 .f32) (x1 : Vec F S128x128 .f32) (x2 : Vec F S200x10000 .f32) (x3 : Vec F S200x10000 .f32) (x4 : Vec F S1x128 .f32) :
    Σ' (L5 : List (View.Piece (Elt F) S400x128 .f32)), { LS : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS)) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS

end Cert.KernelIdeal.Frame

end
-- ==== Proof.KernelIdeal.RunLater.lean ====
/-
  The body at a later grid point, where its branch is not taken: it reads the product of the feature and weight
  matrices back from the scratch, which it leaves as it is, and stores the two half blocks of the output, each
  the maximum with zero of a 200-row band of the adjacency matrix times the product plus the bias row.
-/
import proofs.«160612_g22643067584884_cont_sun_m_966_7_alg».proof.Proof.KernelIdeal.RunFirst

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output window's staging buffer at a later point, with the proof
    that the body runs from the five input buffers and the scratch at their contents, the output buffer at
    anything, to the inputs and the scratch unchanged and those pieces written. -/
noncomputable def runLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : ¬first i)
    (x0 : Vec F S10000x128 .f32) (x1 : Vec F S128x128 .f32) (x2 : Vec F S200x10000 .f32) (x3 : Vec F S200x10000 .f32) (x4 : Vec F S1x128 .f32) (xs : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ (∃ d, owns (c : Thread nD τ) arg6 fullShare d) ∗ owns (c : Thread nD τ) arg7 fullShare xs
            ∗ (iprop(owns (c : Thread nD τ) arg1 fullShare x0 ∗ owns (c : Thread nD τ) arg2 fullShare x1 ∗ owns (c : Thread nD τ) arg3 fullShare x2
                ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ owns (c : Thread nD τ) arg7 fullShare xs) -∗ K ⟨⟩))
          ⊢ wp frame (wpE (defs₀ (F := F)) Variants.none c none) E (cc0__gcn_kernel i arg1 harg1 arg2 harg2 arg3 harg3 arg4 harg4 arg5 harg5 arg6 harg6 arg7 harg7) K } := by
  refine ⟨?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS

end Cert.KernelIdeal.Frame

end
-- ==== Proof.KernelIdeal.Data.lean ====
/-
  What the kernel's buffers hold from point to point.

  The scratch is written once, at the first point, with the product of the feature and weight matrices
  (`support`), and only read afterwards; so before the first point it holds anything and before every later
  point it holds `support`.  The output window's staging buffer is stored whole at every point, in two
  half blocks (`outAt`).  The five input windows' buffers are left as found.  The two windows on the adjacency
  matrix each hold half of its share.
-/
import proofs.«160612_g22643067584884_cont_sun_m_966_7_alg».proof.Proof.KernelIdeal.RunLater
import Idealize.ShloMosaic.Lib.Ring

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cfg0_N : cfg0.N = 25 := N_0

/-- The first grid point. -/
def t₀ : Fin cfg0.N := ⟨0, by rw [cfg0_N]; decide⟩

theorem eq_t₀ (t : Fin cfg0.N) (h : t.val = 0) : t = t₀ := Fin.ext h

/-! ## The pieces the stores leave cover their buffers -/

/-- At the first point the two half-block stores tile the output block. -/
theorem coverFirst (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : first i)
    (x0 : Vec F S10000x128 .f32) (x1 : Vec F S128x128 .f32) (x2 : Vec F S200x10000 .f32) (x3 : Vec F S200x10000 .f32) (x4 : Vec F S1x128 .f32) (y : S400x128.Idx) :
    ∃ pc ∈ (runFirst c i arg1 harg1 arg2 harg2 arg3 harg3 arg4 harg4 arg5 harg5 arg6 harg6 arg7 harg7 hc x0 x1 x2 x3 x4).1, y ∈ pc.1.set :=
  View.cover_of_tiledL (runFirst c i arg1 harg1 arg2 harg2 arg3 harg3 arg4 harg4 arg5 harg5 arg6 harg6 arg7 harg7 hc x0 x1 x2 x3 x4).1 S200x128.size (by sl_kernel_rfl) y

/-- At the first point the one store into the scratch covers it. -/
theorem coverScratch (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : first i)
    (x0 : Vec F S10000x128 .f32) (x1 : Vec F S128x128 .f32) (x2 : Vec F S200x10000 .f32) (x3 : Vec F S200x10000 .f32) (x4 : Vec F S1x128 .f32) (y : S10000x128.Idx) :
    ∃ pc ∈ (runFirst c i arg1 harg1 arg2 harg2 arg3 harg3 arg4 harg4 arg5 harg5 arg6 harg6 arg7 harg7 hc x0 x1 x2 x3 x4).2.1, y ∈ pc.1.set :=
  View.cover_of_tiledL (runFirst c i arg1 harg1 arg2 harg2 arg3 harg3 arg4 harg4 arg5 harg5 arg6 harg6 arg7 harg7 hc x0 x1 x2 x3 x4).2.1 S10000x128.size (by sl_kernel_rfl) y

/-- At a later point the two half-block stores tile the output block. -/
theorem coverLater (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S400x128 .f32) (harg6 : arg6.IsWhole) (arg7 : Memref sig .tc .vmem S10000x128 .f32) (harg7 : arg7.IsWhole) (hc : ¬first i)
    (x0 : Vec F S10000x128 .f32) (x1 : Vec F S128x128 .f32) (x2 : Vec F S200x10000 .f32) (x3 : Vec F S200x10000 .f32) (x4 : Vec F S1x128 .f32) (xs : Vec F S10000x128 .f32) (y : S400x128.Idx) :
    ∃ pc ∈ (runLater c i arg1 harg1 arg2 harg2 arg3 harg3 arg4 harg4 arg5 harg5 arg6 harg6 arg7 harg7 hc x0 x1 x2 x3 x4 xs).1, y ∈ pc.1.set :=
  View.cover_of_tiledL (runLater c i arg1 harg1 arg2 harg2 arg3 harg3 arg4 harg4 arg5 harg5 arg6 harg6 arg7 harg7 hc x0 x1 x2 x3 x4 xs).1 S200x128.size (by sl_kernel_rfl) y

/-! ## The scratch and the output block, point by point -/

/-- What the first point leaves in the scratch: its one store read back. -/
def support (c : Dev nD) : Vec F S10000x128 .f32 :=
  scratchView.read (Elt F) (scratchView.writes (Elt F) scratchView.junk
    (runFirst c (grid0.coords t₀) (ms0 t₀) (hs0 t₀) (ms1 t₀) (hs1 t₀) (ms2 t₀) (hs2 t₀) (ms3 t₀) (hs3 t₀) (ms4 t₀) (hs4 t₀) (ms5 t₀) (hs5 t₀) scratch (Memref.isWhole_whole _) ((first_iff t₀).mpr rfl) (block m c 0 t₀) (block m c 1 t₀) (block m c 2 t₀) (block m c 3 t₀) (block m c 4 t₀)).2.1)

/-- What the body leaves in the output window's staging buffer at the first point, -/
def outFirst (c : Dev nD) (t : Fin cfg0.N) (h : t.val = 0) : Vec F S400x128 .f32 :=
  outView.read (Elt F) (outView.writes (Elt F) outView.junk
    (runFirst c (grid0.coords t) (ms0 t) (hs0 t) (ms1 t) (hs1 t) (ms2 t) (hs2 t) (ms3 t) (hs3 t) (ms4 t) (hs4 t) (ms5 t) (hs5 t) scratch (Memref.isWhole_whole _) ((first_iff t).mpr h) (block m c 0 t) (block m c 1 t) (block m c 2 t) (block m c 3 t) (block m c 4 t)).1)

/-- and at a later point, where the scratch holds `support`. -/
def outLater (c : Dev nD) (t : Fin cfg0.N) (h : ¬t.val = 0) : Vec F S400x128 .f32 :=
  outView.read (Elt F) (outView.writes (Elt F) outView.junk
    (runLater c (grid0.coords t) (ms0 t) (hs0 t) (ms1 t) (hs1 t) (ms2 t) (hs2 t) (ms3 t) (hs3 t) (ms4 t) (hs4 t) (ms5 t) (hs5 t) scratch (Memref.isWhole_whole _) (fun hf => h ((first_iff t).mp hf)) (block m c 0 t) (block m c 1 t) (block m c 2 t) (block m c 3 t) (block m c 4 t) (support m c)).1)

/-- What the body leaves in the output window's staging buffer at point `t`. -/
def outAt (c : Dev nD) (t : Fin cfg0.N) : Vec F S400x128 .f32 :=
  if h : t.val = 0 then outFirst m c t h else outLater m c t h

theorem outAt_first (c : Dev nD) (t : Fin cfg0.N) (h : t.val = 0) : outAt m c t = outFirst m c t h := dif_pos h
theorem outAt_later (c : Dev nD) (t : Fin cfg0.N) (h : ¬t.val = 0) : outAt m c t = outLater m c t h := dif_neg h

/-- The kernel's own invariant before position `n`: the scratch at anything before the first point, at
    `support` afterwards. -/
def carried (c : Dev nD) : ℕ → sProp 𝕄
  | 0 => iprop(∃ d, owns (c : Thread nD τ) scratch fullShare d)
  | _ + 1 => owns (c : Thread nD τ) scratch fullShare (support m c)

theorem carried_zero (c : Dev nD) (n : ℕ) (h : n = 0) : carried m c n = iprop(∃ d, owns (c : Thread nD τ) scratch fullShare d) := by
  subst h; rfl
theorem carried_pos (c : Dev nD) (n : ℕ) (h : n ≠ 0) : carried m c n = owns (c : Thread nD τ) scratch fullShare (support m c) := by
  cases n with
  | zero => exact absurd rfl h
  | succ n => rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => outAt m c t
  Φ t := carried m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = carried m c t.val := by
  dsimp only [dats]; simp only [Fin.coe_castSucc]
theorem Phi_succ (c : Dev nD) (t : Fin cfg0.N) : (dats m 0 c).Φ t.succ = owns (c : Thread nD τ) scratch fullShare (support m c) := by
  dsimp only [dats]; simp only [Fin.val_succ]; rfl

theorem after0 (c : Dev nD) (t : Fin cfg0.N) : (dats m 0 c).after 0 t = block m c 0 t := by dsimp only [dats]
theorem after1 (c : Dev nD) (t : Fin cfg0.N) : (dats m 0 c).after 1 t = block m c 1 t := by dsimp only [dats]
theorem after2 (c : Dev nD) (t : Fin cfg0.N) : (dats m 0 c).after 2 t = block m c 2 t := by dsimp only [dats]
theorem after3 (c : Dev nD) (t : Fin cfg0.N) : (dats m 0 c).after 3 t = block m c 3 t := by dsimp only [dats]
theorem after4 (c : Dev nD) (t : Fin cfg0.N) : (dats m 0 c).after 4 t = block m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = block m c 0 t :=
  before0_of m (dats m 0 c) (A_eq m c 0) (after0 m c) t d
theorem before1 (c : Dev nD) (t : Fin cfg0.N) (d) : (dats m 0 c).before 1 t d = block m c 1 t :=
  before1_of m (dats m 0 c) (A_eq m c 1) (after1 m c) t d
theorem before2 (c : Dev nD) (t : Fin cfg0.N) (d) : (dats m 0 c).before 2 t d = block m c 2 t :=
  before2_of m (dats m 0 c) (A_eq m c 2) (after2 m c) t d
theorem before3 (c : Dev nD) (t : Fin cfg0.N) (d) : (dats m 0 c).before 3 t d = block m c 3 t :=
  before3_of m (dats m 0 c) (A_eq m c 3) (after3 m c) t d
theorem before4 (c : Dev nD) (t : Fin cfg0.N) (d) : (dats m 0 c).before 4 t d = block m c 4 t :=
  before4_of m (dats m 0 c) (A_eq m c 4) (after4 m c) t d

end Cert.KernelIdeal.Frame

end
-- ==== Proof.KernelIdeal.Body.lean ====
/-
  The body meets the proof data at every grid point: handed the five input blocks, the output buffer at
  anything and the scratch as the invariant describes it, it returns the inputs as they were, the output buffer
  at `outAt` and the scratch at `support`.
-/
import proofs.«160612_g22643067584884_cont_sun_m_966_7_alg».proof.Proof.KernelIdeal.Data

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch after the first point is `support`, whichever name the first point goes by. -/
theorem support_eq (c : Dev nD) (t : Fin cfg0.N) (h : t.val = 0) :
    scratchView.read (Elt F) (scratchView.writes (Elt F) scratchView.junk
      (runFirst c (grid0.coords t) (ms0 t) (hs0 t) (ms1 t) (hs1 t) (ms2 t) (hs2 t) (ms3 t) (hs3 t) (ms4 t) (hs4 t) (ms5 t) (hs5 t) scratch (Memref.isWhole_whole _) ((first_iff t).mpr h) (block m c 0 t) (block m c 1 t) (block m c 2 t) (block m c 3 t) (block m c 4 t)).2.1) = support m c := by
  obtain rfl := eq_t₀ t h; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, Phi_succ, Phi_castSucc,
    after0, after1, after2, after3, after4, after5]
  by_cases h : t.val = 0
  · rw [carried_zero m c _ h, outAt_first m c t h]
    unfold outFirst
    iintro ⟨HS, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ _ _ ((first_iff t).mpr h) (block m c 0 t) (block m c 1 t) (block m c 2 t) (block m c 3 t) (block m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, ⟨%es, HS⟩⟩
    isplitl [HS]
    · unfold owns; iexists _; isplitr
      swap; · iexact HS
      ipureintro
      exact (View.read_writes_of_cover _ _ _ _ _ (coverScratch c _ _ _ _ _ _ _ _ _ _ _ _ _ _ _ _ _ _ _ _ _)).trans (support_eq m c t h)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _ _ _)
  · rw [carried_pos m c _ h, outAt_later m c t h]
    unfold outLater
    iintro ⟨HS, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ _ _ (fun hf => h ((first_iff t).mp hf)) (block m c 0 t) (block m c 1 t) (block m c 2 t) (block m c 3 t) (block m c 4 t) (support m c)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KernelIdeal.Launch.lean ====
/-
  The whole run.  The adjacency matrix is handed to the kernel through two windows, so its buffer's share is
  dealt between them, half each; the other four arrays are held whole.  With that, the pipeline's launch theorem
  for windows that share an array gives: every execution of the program terminates, each window's array ends
  at what the write-backs of the proof data make of it, and the one buffer that is no window's array — the bias
  vector — ends as the launch found it.
-/
import proofs.«160612_g22643067584884_cont_sun_m_966_7_alg».proof.Proof.KernelIdeal.Body

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's user-algebra element: the pipeline library's alone. -/
def u₀ : UR sig nD τ := initOf (Pipeline.cells cfgs cellOf_inj) (Pipeline.launchToks cfgs cellOf_inj)

/-- The distinct buffers behind the windows' arrays, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg2) ↦{fullShare} V' main_arg2)
          ∗ (((c : Thread nD τ).loc main_arg1) ↦{fullShare} V' main_arg1) ∗ (((c : Thread nD τ).loc main_call0_v0) ↦{fullShare} V' main_call0_v0)
          ∗ (((c : Thread nD τ).loc main_v0) ↦{fullShare} V' main_v0)) := by
  unfold Pipeline.arrBufs
  exact bigSep_eq_bigSepL_of_eq [main_arg0, main_arg2, main_arg1, main_call0_v0, main_v0] (by decide) (by decide) _

/-- Each window's array at its share, spelled over the buffer behind it: the adjacency matrix's two windows hold
    its two half shares, the other windows their arrays whole. -/
theorem share0 (c : Dev nD) : (dats m 0 c).share 0 = fullShare := by unfold Dat.share; rfl
theorem arrays0 (c : Dev nD) :
    ((cfg0.win 0).arr.view.loc (c.tc : Thread nD τ) ↦[(cfg0.win 0).arr.view.set]{(dats m 0 c).share 0} (dats m 0 c).arrAt 0 0 : sProp 𝕄)
      = (((c : Thread nD τ).loc main_arg0) ↦{fullShare} V m c main_arg0) := by
  rw [share0, show (dats m 0 c).arrAt 0 0 = (dats m 0 c).A 0 from rfl, A_eq, (arr_whole0 0).set_eq_univ]
theorem share1 (c : Dev nD) : (dats m 0 c).share 1 = fullShare := by unfold Dat.share; rfl
theorem arrays1 (c : Dev nD) :
    ((cfg0.win 1).arr.view.loc (c.tc : Thread nD τ) ↦[(cfg0.win 1).arr.view.set]{(dats m 0 c).share 1} (dats m 0 c).arrAt 1 0 : sProp 𝕄)
      = (((c : Thread nD τ).loc main_arg2) ↦{fullShare} V m c main_arg2) := by
  rw [share1, show (dats m 0 c).arrAt 1 0 = (dats m 0 c).A 1 from rfl, A_eq, (arr_whole0 1).set_eq_univ]
theorem share2 (c : Dev nD) : (dats m 0 c).share 2 = fullShare.left := by unfold Dat.share; rfl
theorem arrays2 (c : Dev nD) :
    ((cfg0.win 2).arr.view.loc (c.tc : Thread nD τ) ↦[(cfg0.win 2).arr.view.set]{(dats m 0 c).share 2} (dats m 0 c).arrAt 2 0 : sProp 𝕄)
      = (((c : Thread nD τ).loc main_arg1) ↦{fullShare.left} V m c main_arg1) := by
  rw [share2, show (dats m 0 c).arrAt 2 0 = (dats m 0 c).A 2 from rfl, A_eq, (arr_whole0 2).set_eq_univ]
theorem share3 (c : Dev nD) : (dats m 0 c).share 3 = fullShare.right := by unfold Dat.share; rfl
theorem arrays3 (c : Dev nD) :
    ((cfg0.win 3).arr.view.loc (c.tc : Thread nD τ) ↦[(cfg0.win 3).arr.view.set]{(dats m 0 c).share 3} (dats m 0 c).arrAt 3 0 : sProp 𝕄)
      = (((c : Thread nD τ).loc main_arg1) ↦{fullShare.right} V m c main_arg1) := by
  rw [share3, show (dats m 0 c).arrAt 3 0 = (dats m 0 c).A 3 from rfl, A_eq, (arr_whole0 3).set_eq_univ]
theorem share4 (c : Dev nD) : (dats m 0 c).share 4 = fullShare := by unfold Dat.share; rfl
theorem arrays4 (c : Dev nD) :
    ((cfg0.win 4).arr.view.loc (c.tc : Thread nD τ) ↦[(cfg0.win 4).arr.view.set]{(dats m 0 c).share 4} (dats m 0 c).arrAt 4 0 : sProp 𝕄)
      = (((c : Thread nD τ).loc main_call0_v0) ↦{fullShare} V m c main_call0_v0) := by
  rw [share4, show (dats m 0 c).arrAt 4 0 = (dats m 0 c).A 4 from rfl, A_eq, (arr_whole0 4).set_eq_univ]
theorem share5 (c : Dev nD) : (dats m 0 c).share 5 = fullShare := by unfold Dat.share; rfl
theorem arrays5 (c : Dev nD) :
    ((cfg0.win 5).arr.view.loc (c.tc : Thread nD τ) ↦[(cfg0.win 5).arr.view.set]{(dats m 0 c).share 5} (dats m 0 c).arrAt 5 0 : sProp 𝕄)
      = (((c : Thread nD τ).loc main_v0) ↦{fullShare} V m c main_v0) := by
  rw [share5, show (dats m 0 c).arrAt 5 0 = (dats m 0 c).A 5 from rfl, A_eq, (arr_whole0 5).set_eq_univ]

/-- The buffers behind the windows' arrays, each whole, make the windows' arrays at their shares: the adjacency
    matrix's full share is its two halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  rw [arrays0, arrays1, arrays2, arrays3, arrays4, arrays5]
  iintro ⟨H0, H2, H1, H4, H5⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  isplitl [H4]; · iexact H4
  iexact H5

set_option backward.isDefEq.respectTransparency.types false in
/-- Every weakly fair execution of the program terminates, with every window's array at what the proof data
    compute and the bias vector as the launch found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = carried m c 0 from rfl, carried_zero m c 0 rfl, scopedRest_scratch]
      iintro ⟨-, H⟩; iexact H)
    (hout := fun c => by
      rw [show (dats m 0 c).Φ (Fin.last cfg0.N) = carried m c (Fin.last cfg0.N).val from rfl,
        carried_pos m c _ (by rw [Fin.val_last, cfg0_N]; decide), scopedRest_scratch]
      iintro H; isplitr; · iempintro
      iexists _; iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The four argument arrays end as they began: the three a window stages are inputs, which the pipeline never
    writes, and the bias vector is no window's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)

end Cert.KernelIdeal.Frame

end
-- ==== Proof.KernelIdeal.OutputBlock.lean ====
/-
  The scratch and the output block as terms of the input blocks.

  The scratch after the first point is the product of the feature block and the weight block.  The output
  block at every point is two half blocks: rows 0–199 are the first adjacency band times the scratch plus the
  bias row, clipped below at zero, and rows 200–399 the same of the second band (`twoHalves`).
-/
import proofs.«160612_g22643067584884_cont_sun_m_966_7_alg».proof.Proof.KernelIdeal.Body
import Idealize.ShloMosaic.Lib.Pipeline.Value
import Idealize.ShloMosaic.Lib.ValueIdx

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem hz : (![0, 0] : Fin 2 → Nat) = fun _ => 0 := funext fun a => by fin_cases a <;> rfl

/-- The first point leaves in the scratch the product of the feature block and the weight block. -/
theorem support_is (c : Dev nD) : support m c = k0_pay1 (block m c 0 t₀) (block m c 1 t₀) := by
  unfold support
  rw [View.read_writes_eq_canon _ _ _ (coverScratch c _ _ _ _ _ _ _ _ _ _ _ _ _ _ _ _ _ _ _ _ _)]
  unfold runFirst
  dsimp only
  try sl_unfold_words
  rw [View.canon_unit_zero hz]
  simp only [View.readAt_eq_ld, Memref.IsWhole.read_unread, View.ld_unit_zero (S := S10000x128) hz, View.ld_unit_zero (S := S128x128) hz]

/-- Two half blocks, one over the other: what the body's two stores leave in the 400×128 output block, from the
    scratch, the bias row and the two adjacency bands. -/
def twoHalves (S : Vec F S10000x128 .f32) (bb : Vec F S1x128 .f32) (A0 A1 : Vec F S200x10000 .f32) : Vec F S400x128 .f32 :=
  View.canon [⟨Rect.unit (s := S400x128) ![200, 0] S200x128.size inb_S400x128_S200x128_200_0, k0_pay4 S bb A1⟩,
    ⟨Rect.unit (s := S400x128) ![0, 0] S200x128.size inb_S400x128_S200x128_0_0, k0_pay3 S bb A0⟩]

/-- Rows 0–199 of the output block are the first band's half block, -/
theorem twoHalves_upper (S : Vec F S10000x128 .f32) (bb : Vec F S1x128 .f32) (A0 A1 : Vec F S200x10000 .f32)
    (p : Fin 200) (j : Fin 128) (q : Fin 400) (hq : q.val = p.val) :
    twoHalves S bb A0 A1 (ix2 q j) = k0_pay3 S bb A0 (ix2 p j) := by
  unfold twoHalves
  rw [View.canon_cons_of_not_mem _ _ (by
    rw [Rect.mem_set_unit]; intro h
    have h0 : 200 ≤ q.val := (h 0).1
    have := p.isLt; omega)]
  have e : (ix2 q j : S400x128.Idx) = (Rect.unit (s := S400x128) ![0, 0] S200x128.size inb_S400x128_S200x128_0_0).emb (ix2 p j) :=
    funext fun a => Fin.ext (by
      match a with
      | ⟨0, _⟩ => show q.val = 0 + 1 * p.val; omega
      | ⟨1, _⟩ => show j.val = 0 + 1 * j.val; omega)
  rw [e, View.canon_cons_emb]

/-- and rows 200–399 the second band's. -/
theorem twoHalves_lower (S : Vec F S10000x128 .f32) (bb : Vec F S1x128 .f32) (A0 A1 : Vec F S200x10000 .f32)
    (p : Fin 200) (j : Fin 128) (q : Fin 400) (hq : q.val = 200 + p.val) :
    twoHalves S bb A0 A1 (ix2 q j) = k0_pay4 S bb A1 (ix2 p j) := by
  unfold twoHalves
  have e : (ix2 q j : S400x128.Idx) = (Rect.unit (s := S400x128) ![200, 0] S200x128.size inb_S400x128_S200x128_200_0).emb (ix2 p j) :=
    funext fun a => Fin.ext (by
      match a with
      | ⟨0, _⟩ => show q.val = 200 + 1 * p.val; omega
      | ⟨1, _⟩ => show j.val = 0 + 1 * j.val; omega)
  rw [e, View.canon_cons_emb]

/-- The output block at the first point, where the scratch is read back right after it was stored, -/
theorem outFirst_is (c : Dev nD) (t : Fin cfg0.N) (h : t.val = 0) :
    outFirst m c t h = twoHalves (k0_pay1 (block m c 0 t) (block m c 1 t)) (block m c 4 t) (block m c 2 t) (block m c 3 t) := by
  unfold outFirst
  rw [View.read_writes_eq_canon _ _ _ (coverFirst c _ _ _ _ _ _ _ _ _ _ _ _ _ _ _ _ _ _ _ _ _)]
  unfold runFirst
  dsimp only
  try sl_unfold_words
  rw [View.readCov_unit_zero (S := S10000x128) _ hz]
  simp only [View.readAt_eq_ld, Memref.IsWhole.read_unread, View.ld_unit_zero (S := S10000x128) hz, View.ld_unit_zero (S := S128x128) hz,
    View.ld_unit_zero (S := S200x10000) hz, View.ld_unit_zero (S := S1x128) hz]
  rfl

/-- and at a later point, where the scratch still holds what the first point left. -/
theorem outLater_is (c : Dev nD) (t : Fin cfg0.N) (h : ¬t.val = 0) :
    outLater m c t h = twoHalves (support m c) (block m c 4 t) (block m c 2 t) (block m c 3 t) := by
  unfold outLater
  rw [View.read_writes_eq_canon _ _ _ (coverLater c _ _ _ _ _ _ _ _ _ _ _ _ _ _ _ _ _ _ _ _ _ _)]
  unfold runLater
  dsimp only
  try sl_unfold_words
  simp only [View.readAt_eq_ld, Memref.IsWhole.read_unread, View.ld_unit_zero (S := S10000x128) hz,
    View.ld_unit_zero (S := S200x10000) hz, View.ld_unit_zero (S := S1x128) hz]
  have e : View.read (Elt F) (View.whole cc0_scratch0) ((Memref.isWhole_whole cc0_scratch0).unread (support m c)) = support m c :=
    (Memref.isWhole_whole cc0_scratch0).read_unread (support m c)
  rw [e]
  rfl

/-- At every point the output block is the two half blocks over the product the first point computed. -/
theorem outAt_is (c : Dev nD) (t : Fin cfg0.N) :
    outAt m c t = twoHalves (k0_pay1 (block m c 0 t₀) (block m c 1 t₀)) (block m c 4 t) (block m c 2 t) (block m c 3 t) := by
  by_cases h : t.val = 0
  · rw [outAt_first m c t h, outFirst_is]
    obtain rfl := eq_t₀ t h; rfl
  · rw [outAt_later m c t h, outLater_is, support_is]

end Cert.KernelIdeal.Frame

end
-- ==== Proof.KernelIdeal.BlockRows.lean ====
import proofs.«160612_g22643067584884_cont_sun_m_966_7_alg».proof.Proof.KernelIdeal.Entry
import Idealize.ShloMosaic.Lib.Pipeline.Value
import Idealize.ShloMosaic.Lib.ValueIdx
import Idealize.ShloMosaic.Lib.ValueLayout
import Idealize.ShloMosaic.Lib.StableHlo.Run

/-!
# The windows' blocks as entries of the argument arrays

At grid point `t` the kernel sees, through its five input windows,

* the whole feature matrix and the whole weight matrix (their index maps are constantly `(0, 0)` and
  a block is the whole array);
* two blocks of 200 rows of the adjacency matrix: the index maps are `(2 t, 0)` and `(2 t + 1, 0)` and
  a block's coordinate is the index times the block's extent plus the coordinate inside the block,
  so row `p` of the first block is row `400 t + p` of the matrix and row `p` of the second is row
  `400 t + 200 + p`;
* the bias as a 1 × 128 row: the array behind that window is the one the program writes before the
  launch, the bias vector recast to one row, whose entry `(0, j)` is the vector's entry `j`.

The index maps are decided once over the 25 grid points; no block is ever evaluated.
-/

set_option maxRecDepth 16384

noncomputable section

namespace Cert.KernelIdeal.Frame

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The index maps over the grid -/

/-- The feature matrix's window always selects block `(0, 0)`. -/
theorem index_features : ∀ t : Fin cfg0.N, win0_0.index t 0 = 0 ∧ win0_0.index t 1 = 0 :=
  (by decide +kernel : ∀ t : Fin grid0.N, win0_0.index t 0 = 0 ∧ win0_0.index t 1 = 0)
/-- So does the weight matrix's. -/
theorem index_weights : ∀ t : Fin cfg0.N, win0_1.index t 0 = 0 ∧ win0_1.index t 1 = 0 :=
  (by decide +kernel : ∀ t : Fin grid0.N, win0_1.index t 0 = 0 ∧ win0_1.index t 1 = 0)
/-- The first adjacency window selects row block `2 t`. -/
theorem index_rows : ∀ t : Fin cfg0.N, win0_2.index t 0 = 2 * t.val ∧ win0_2.index t 1 = 0 :=
  (by decide +kernel : ∀ t : Fin grid0.N, win0_2.index t 0 = 2 * t.val ∧ win0_2.index t 1 = 0)
/-- The second selects row block `2 t + 1`. -/
theorem index_rows' : ∀ t : Fin cfg0.N, win0_3.index t 0 = 2 * t.val + 1 ∧ win0_3.index t 1 = 0 :=
  (by decide +kernel : ∀ t : Fin grid0.N, win0_3.index t 0 = 2 * t.val + 1 ∧ win0_3.index t 1 = 0)
/-- The bias row's window always selects block `(0, 0)`. -/
theorem index_bias : ∀ t : Fin cfg0.N, win0_4.index t 0 = 0 ∧ win0_4.index t 1 = 0 :=
  (by decide +kernel : ∀ t : Fin grid0.N, win0_4.index t 0 = 0 ∧ win0_4.index t 1 = 0)

/-! ## The blocks -/

/-- The feature matrix's block is the matrix. -/
theorem block0_apply (c : Dev nD) (t : Fin cfg0.N) (k : Fin 10000) (l : Fin 128) :
    (block m c 0 t : Vec F S10000x128 .f32) (ix2 k l)
      = (m ((c : Thread nD τ).loc main_arg0) : S10000x128.Idx → Elt F .f32) (ix2 k l) := by
  have hi := index_features t
  unfold block
  rw [View.read_apply]
  show V m c main_arg0 _ = m (c.tc.loc main_arg0) _
  rw [V_main_arg0]
  congr 1
  funext a
  apply Fin.ext
  match a with
  | ⟨0, _⟩ => show win0_0.index t 0 * 10000 + 1 * k.val = k.val; rw [hi.1]; omega
  | ⟨1, _⟩ => show win0_0.index t 1 * 128 + 1 * l.val = l.val; rw [hi.2]; omega

/-- The weight matrix's block is the matrix. -/
theorem block1_apply (c : Dev nD) (t : Fin cfg0.N) (l j : Fin 128) :
    (block m c 1 t : Vec F S128x128 .f32) (ix2 l j)
      = (m ((c : Thread nD τ).loc main_arg2) : S128x128.Idx → Elt F .f32) (ix2 l j) := by
  have hi := index_weights t
  unfold block
  rw [View.read_apply]
  show V m c main_arg2 _ = m (c.tc.loc main_arg2) _
  rw [V_main_arg2]
  congr 1
  funext a
  apply Fin.ext
  match a with
  | ⟨0, _⟩ => show win0_1.index t 0 * 128 + 1 * l.val = l.val; rw [hi.1]; omega
  | ⟨1, _⟩ => show win0_1.index t 1 * 128 + 1 * j.val = j.val; rw [hi.2]; omega

/-- Row `p` of the first adjacency block at point `t` is row `400 t + p` of the adjacency matrix. -/
theorem block2_apply (c : Dev nD) (t : Fin cfg0.N) (p : Fin 200) (k : Fin 10000) (r : Fin 10000)
    (hr : r.val = 400 * t.val + p.val) :
    (block m c 2 t : Vec F S200x10000 .f32) (ix2 p k)
      = (m ((c : Thread nD τ).loc main_arg1) : S10000x10000.Idx → Elt F .f32) (ix2 r k) := by
  have hi := index_rows t
  unfold block
  rw [View.read_apply]
  show V m c main_arg1 _ = m (c.tc.loc main_arg1) _
  rw [V_main_arg1]
  congr 1
  funext a
  apply Fin.ext
  match a with
  | ⟨0, _⟩ => show win0_2.index t 0 * 200 + 1 * p.val = r.val; rw [hi.1, hr]; omega
  | ⟨1, _⟩ => show win0_2.index t 1 * 10000 + 1 * k.val = k.val; rw [hi.2]; omega

/-- Row `p` of the second adjacency block at point `t` is row `400 t + 200 + p` of the adjacency matrix. -/
theorem block3_apply (c : Dev nD) (t : Fin cfg0.N) (p : Fin 200) (k : Fin 10000) (r : Fin 10000)
    (hr : r.val = 400 * t.val + 200 + p.val) :
    (block m c 3 t : Vec F S200x10000 .f32) (ix2 p k)
      = (m ((c : Thread nD τ).loc main_arg1) : S10000x10000.Idx → Elt F .f32) (ix2 r k) := by
  have hi := index_rows' t
  unfold block
  rw [View.read_apply]
  show V m c main_arg1 _ = m (c.tc.loc main_arg1) _
  rw [V_main_arg1]
  congr 1
  funext a
  apply Fin.ext
  match a with
  | ⟨0, _⟩ => show win0_3.index t 0 * 200 + 1 * p.val = r.val; rw [hi.1, hr]; omega
  | ⟨1, _⟩ => show win0_3.index t 1 * 10000 + 1 * k.val = k.val; rw [hi.2]; omega

/-- When the launch begins, the array behind the bias window is the bias vector recast to one row. -/
theorem V_bias_row (c : Dev nD) :
    (V m c main_call0_v0 : S1x128.Idx → Elt F .f32)
      = shapeCast S1x128 (m ((c : Thread nD τ).loc main_arg3) : S128.Idx → Elt F .f32) Facts₀.shapeCasts_S128_S1x128 := by
  dsimp only [V, hostOps0]
  after_results
  rfl

/-- The bias row's block, at `(0, j)`, is the bias vector's entry `j`. -/
theorem block4_apply (c : Dev nD) (t : Fin cfg0.N) (j : Fin 128) :
    (block m c 4 t : Vec F S1x128 .f32) (ix2 (0 : Fin 1) j)
      = (m ((c : Thread nD τ).loc main_arg3) : S128.Idx → Elt F .f32) (ix1 j) := by
  have hi := index_bias t
  unfold block
  rw [View.read_apply]
  show (V m c main_call0_v0 : S1x128.Idx → Elt F .f32) _ = _
  rw [V_bias_row]
  refine Eq.trans (congrArg _ ?_) (shapeCast_a_1a_apply _ _ (0 : Fin 1) j)
  funext a
  apply Fin.ext
  match a with
  | ⟨0, _⟩ => show win0_4.index t 0 * 1 + 1 * 0 = 0; rw [hi.1]
  | ⟨1, _⟩ => show win0_4.index t 1 * 128 + 1 * j.val = j.val; rw [hi.2]; omega

end Cert.KernelIdeal.Frame

end
-- ==== Proof.Spec.lean ====
import Idealize.ShloMosaic.PureOps.Ideal
import Idealize.ShloMosaic.Lib.ValueIdx

/-!
# One graph-convolution layer, entry by entry

For node features `X` (10000 × 128), an adjacency matrix `A` (10000 × 10000), weights `W` (128 × 128)
and a bias `b` (128), the layer is `relu (A · (X · W) + b)`. Over the extended reals its entry at row
`r` and column `j` is

  max (∑ k, A[r, k] · (∑ l, X[k, l] · W[l, j]) + b[j]) 0

with the inner product `X · W` formed first and the outer sum over the 10000 nodes taken of the
products with that inner sum. No law of arithmetic is used anywhere below: both programs compute this
very grouping, so everything is a reading of operations at an index.

The clip against zero is written against the 32-bit word of the float zero, `Ideal.ofBits .f32 0`,
and not against the numeral `0`: the same word appears on both sides and is never evaluated.
-/

noncomputable section

namespace Cert.GraphConv

open Idealize.ShloMosaic Idealize.ShloMosaic.ValueIdx
open scoped BigOperators

/-- The layer `relu (A · (X · W) + b)` at the index `i = (r, j)`: the sum over the nodes `k` of
    `A[r, k]` times the `(k, j)` entry of `X · W`, plus the bias of column `j`, clipped below at the
    float zero's word. -/
def layer (X : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) :
    (⟨2, ![10000, 128]⟩ : Shape).Idx → EReal := fun i =>
  max (∑ k : Fin 10000, A (ix2 (i 0 : Fin 10000) k) * (∑ l : Fin 128, X (ix2 k l) * W (ix2 l (i 1 : Fin 128)))
        + b (ix1 (i 1 : Fin 128)))
    (Ideal.ofBits .f32 0x00000000#32)

/-- The layer at explicit coordinates: row `r`, column `j`. -/
theorem layer_apply (X : (⟨2, ![10000, 128]⟩ : Shape).Idx → EReal) (A : (⟨2, ![10000, 10000]⟩ : Shape).Idx → EReal)
    (W : (⟨2, ![128, 128]⟩ : Shape).Idx → EReal) (b : (⟨1, ![128]⟩ : Shape).Idx → EReal) (r : Fin 10000) (j : Fin 128) :
    layer X A W b (ix2 r j)
      = max (∑ k : Fin 10000, A (ix2 r k) * (∑ l : Fin 128, X (ix2 k l) * W (ix2 l j)) + b (ix1 j))
          (Ideal.ofBits .f32 0x00000000#32) := rfl

end Cert.GraphConv

end
-- ==== Proof.KernelPayloads.lean ====
import proofs.«160612_g22643067584884_cont_sun_m_966_7_alg».proof.Proof.Gen.KernelIdeal.Skeleton
import proofs.«160612_g22643067584884_cont_sun_m_966_7_alg».proof.Proof.Spec
import Idealize.ShloMosaic.PureOps.Ideal.Laws
import Idealize.ShloMosaic.Lib.ValueIdx
import Idealize.ShloMosaic.Lib.Pipeline.Value
import Idealize.ShloMosaic.Lib.ValueLayout

/-!
# The kernel's arithmetic, entry by entry

The kernel body has three pieces of arithmetic. Once, it forms the whole product `X · W` (10000 × 128)
and keeps it. Then, for each of its two blocks of 200 rows of `A`, it multiplies the block
(200 × 10000) by the kept product, adds the bias row broadcast down the 200 rows, and takes the
maximum with a zero splat. Over the extended reals a matrix product into a zero accumulator is, at
each entry, the sum over the contraction coordinate of the products of the operands' entries; the
other operations act entry by entry. So

* the kept product at `(k, j)` is `∑ l, X[k, l] · W[l, j]`;
* a half block's result at `(p, j)` is `max (∑ k, Ablk[p, k] · S[k, j] + bias[0, j]) 0`,

where `S` is whatever the kept array holds and the zero is the float zero's 32-bit word, left as a
word. Everything is stated over variables of the literal vector types and explicit coordinates.

Put together: when the block's row `p` is row `r` of `A`, the kept array is `X · W` and the bias row
holds `b`, a half block's entry `(p, j)` is the layer's entry `(r, j)`.
-/

noncomputable section

namespace Cert.GraphConv

open Idealize.ShloMosaic Idealize.ShloMosaic.ValueIdx Cert.KernelIdeal Cert.KernelIdeal.Gen
open scoped BigOperators

/-! ## The two matrix products read at an entry

Both contract the left operand's columns against the right operand's rows. The contraction index
has one axis; it is identified with its coordinate, and the operands' indices at an output entry
`(r, c)` and contraction coordinate `k` are `(r, k)` and `(k, c)`. -/

/-- At output index `i` and contraction position `q`, the left operand is read at the row of `i` … -/
theorem xw_lhs_row (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
/-- … and at the contraction position's one coordinate as its column; -/
theorem xw_lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right operand at that coordinate as its row … -/
theorem xw_rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and at the column of `i`. -/
theorem xw_rhs_col (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product `X · W` into a zero accumulator, at `(k, j)`: the sum over `l` of `X[k, l] · W[l, j]`. -/
theorem xw_apply (X : FVec Ideal S10000x128 .f32) (W : FVec Ideal S128x128 .f32) (k : Fin 10000) (j : Fin 128) :
    FloatOps.matmul dot_S10000x128_S128x128_S10000x128_1_0_0_1_n_n none X W (constant (F := Ideal) S10000x128 .f32 0x00000000#32) (ix2 k j)
      = ∑ l : Fin 128, X (ix2 k l) * W (ix2 l j) := by
  rw [Ideal.matmul_constant_zero_apply, ← Equiv.sum_comp (contrEquiv1 dot_S10000x128_S128x128_S10000x128_1_0_0_1_n_n 128 rfl rfl).symm]
  refine Finset.sum_congr rfl fun l _ => ?_
  have hl := contrEquiv1_symm_val dot_S10000x128_S128x128_S10000x128_1_0_0_1_n_n 128 rfl rfl l
  have el : dot_S10000x128_S128x128_S10000x128_1_0_0_1_n_n.lhsIdx (ix2 k j) ((contrEquiv1 dot_S10000x128_S128x128_S10000x128_1_0_0_1_n_n 128 rfl rfl).symm l) = ix2 k l :=
    funext fun a => Fin.ext (by
      match a with
      | ⟨0, _⟩ => exact xw_lhs_row _ _
      | ⟨1, _⟩ => exact (xw_lhs_col _ _).trans hl)
  have er : dot_S10000x128_S128x128_S10000x128_1_0_0_1_n_n.rhsIdx (ix2 k j) ((contrEquiv1 dot_S10000x128_S128x128_S10000x128_1_0_0_1_n_n 128 rfl rfl).symm l) = ix2 l j :=
    funext fun a => Fin.ext (by
      match a with
      | ⟨0, _⟩ => exact (xw_rhs_row _ _).trans hl
      | ⟨1, _⟩ => exact xw_rhs_col _ _)
  rw [el, er]

/-- At output index `i` and contraction position `q`, the left operand is read at the row of `i` … -/
theorem blk_lhs_row (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide),
    dif_pos (show (0 : Fin S200x10000.rank) ∈ dot_S200x10000_S10000x128_S200x128_1_0_0_1_n_n.lhsNonContracting by decide)]
  rfl
/-- … and at the contraction position's one coordinate as its column; -/
theorem blk_lhs_col (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- the right operand at that coordinate as its row … -/
theorem blk_rhs_row (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- … and at the column of `i`. -/
theorem blk_rhs_col (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide),
    dif_pos (show (1 : Fin S10000x128.rank) ∈ dot_S200x10000_S10000x128_S200x128_1_0_0_1_n_n.rhsNonContracting by decide)]
  rfl

/-- A 200-row block of `A` times a 10000 × 128 array into a zero accumulator, at `(p, j)`: the sum over the nodes `k` of `Ablk[p, k] · S[k, j]`. -/
theorem blk_apply (Ablk : FVec Ideal S200x10000 .f32) (S : FVec Ideal S10000x128 .f32) (p : Fin 200) (j : Fin 128) :
    FloatOps.matmul dot_S200x10000_S10000x128_S200x128_1_0_0_1_n_n none Ablk S (constant (F := Ideal) S200x128 .f32 0x00000000#32) (ix2 p j)
      = ∑ k : Fin 10000, Ablk (ix2 p k) * S (ix2 k j) := by
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p j) ((contrEquiv1 dot_S200x10000_S10000x128_S200x128_1_0_0_1_n_n 10000 rfl rfl).symm k) = ix2 p k :=
    funext fun a => Fin.ext (by
      match a with
      | ⟨0, _⟩ => exact blk_lhs_row _ _
      | ⟨1, _⟩ => exact (blk_lhs_col _ _).trans hk)
  have er : dot_S200x10000_S10000x128_S200x128_1_0_0_1_n_n.rhsIdx (ix2 p j) ((contrEquiv1 dot_S200x10000_S10000x128_S200x128_1_0_0_1_n_n 10000 rfl rfl).symm k) = ix2 k j :=
    funext fun a => Fin.ext (by
      match a with
      | ⟨0, _⟩ => exact (blk_rhs_row _ _).trans hk
      | ⟨1, _⟩ => exact blk_rhs_col _ _)
  rw [el, er]

/-! ## The payloads -/

/-- The array the kernel keeps is `X · W`: its `(k, j)` entry is `∑ l, X[k, l] · W[l, j]` (the cast
    to its own shape changes nothing). -/
theorem support_apply (X : Vec Ideal S10000x128 .f32) (W : Vec Ideal S128x128 .f32) (k : Fin 10000) (j : Fin 128) :
    k0_pay1 (F := Ideal) X W (ix2 k j) = ∑ l : Fin 128, X (ix2 k l) * W (ix2 l j) := by
  unfold k0_pay1
  show shapeCast S10000x128 (FloatOps.matmul dot_S10000x128_S128x128_S10000x128_1_0_0_1_n_n none
      (X : FVec Ideal S10000x128 .f32) (W : FVec Ideal S128x128 .f32) (constant (F := Ideal) S10000x128 .f32 0x00000000#32)) _ (ix2 k j) = _
  rw [shapeCast_self]
  exact xw_apply X W k j

/-- The first half block: at `(p, j)`, the sum over the nodes `k` of `Ablk[p, k] · S[k, j]`, plus the
    bias row's entry `j`, clipped below at the float zero's word. -/
theorem half_apply (S : Vec Ideal S10000x128 .f32) (bb : Vec Ideal S1x128 .f32) (Ablk : Vec Ideal S200x10000 .f32)
    (p : Fin 200) (j : Fin 128) :
    k0_pay3 (F := Ideal) S bb Ablk (ix2 p j)
      = max (∑ k : Fin 10000, Ablk (ix2 p k) * S (ix2 k j) + bb (ix2 (0 : Fin 1) j)) (Ideal.ofBits .f32 0x00000000#32) := by
  unfold k0_pay3 k0_pay2
  show max (FloatOps.matmul dot_S200x10000_S10000x128_S200x128_1_0_0_1_n_n none
        (Ablk : FVec Ideal S200x10000 .f32) (S : FVec Ideal S10000x128 .f32) (constant (F := Ideal) S200x128 .f32 0x00000000#32) (ix2 p j)
      + broadcastTo S200x128 (shapeCast S1x128 bb _) _ (ix2 p j)) (Ideal.ofBits .f32 0x00000000#32) = _
  rw [blk_apply, broadcastTo_1b_ab_apply, shapeCast_self]

/-- The second half block is the same arithmetic on the other 200 rows of `A`. -/
theorem half_apply' (S : Vec Ideal S10000x128 .f32) (bb : Vec Ideal S1x128 .f32) (Ablk : Vec Ideal S200x10000 .f32)
    (p : Fin 200) (j : Fin 128) :
    k0_pay4 (F := Ideal) S bb Ablk (ix2 p j)
      = max (∑ k : Fin 10000, Ablk (ix2 p k) * S (ix2 k j) + bb (ix2 (0 : Fin 1) j)) (Ideal.ofBits .f32 0x00000000#32) := by
  unfold k0_pay4 k0_pay2
  show max (FloatOps.matmul dot_S200x10000_S10000x128_S200x128_1_0_0_1_n_n none
        (Ablk : FVec Ideal S200x10000 .f32) (S : FVec Ideal S10000x128 .f32) (constant (F := Ideal) S200x128 .f32 0x00000000#32) (ix2 p j)
      + broadcastTo S200x128 (shapeCast S1x128 bb _) _ (ix2 p j)) (Ideal.ofBits .f32 0x00000000#32) = _
  rw [blk_apply, broadcastTo_1b_ab_apply, shapeCast_self]

/-! ## A half block's entry is the layer's entry -/

/-- If row `p` of the block is row `r` of `A` and the bias row's entry `j` is `b[j]`, then with `X · W`
    as the kept array the first half block's entry `(p, j)` is the layer's entry `(r, j)`. -/
theorem half_layer (X : Vec Ideal S10000x128 .f32) (A : Vec Ideal S10000x10000 .f32) (W : Vec Ideal S128x128 .f32)
    (b : Vec Ideal S128 .f32) (bb : Vec Ideal S1x128 .f32) (Ablk : Vec Ideal S200x10000 .f32)
    (r : Fin 10000) (p : Fin 200) (j : Fin 128)
    (hA : ∀ k : Fin 10000, Ablk (ix2 p k) = A (ix2 r k)) (hb : bb (ix2 (0 : Fin 1) j) = b (ix1 j)) :
    k0_pay3 (F := Ideal) (k0_pay1 (F := Ideal) X W) bb Ablk (ix2 p j) = layer X A W b (ix2 r j) := by
  rw [half_apply, layer_apply, hb]
  simp only [hA, support_apply]

/-- The same for the second half block. -/
theorem half_layer' (X : Vec Ideal S10000x128 .f32) (A : Vec Ideal S10000x10000 .f32) (W : Vec Ideal S128x128 .f32)
    (b : Vec Ideal S128 .f32) (bb : Vec Ideal S1x128 .f32) (Ablk : Vec Ideal S200x10000 .f32)
    (r : Fin 10000) (p : Fin 200) (j : Fin 128)
    (hA : ∀ k : Fin 10000, Ablk (ix2 p k) = A (ix2 r k)) (hb : bb (ix2 (0 : Fin 1) j) = b (ix1 j)) :
    k0_pay4 (F := Ideal) (k0_pay1 (F := Ideal) X W) bb Ablk (ix2 p j) = layer X A W b (ix2 r j) := by
  rw [half_apply', layer_apply, hb]
  simp only [hA, support_apply]

end Cert.GraphConv

end
-- ==== Proof.KernelIdeal.Final.lean ====
/-
  The kernel's result array as one function of the four argument arrays.

  At the point `t` the pipeline writes the 400-row output block back to rows `400 t … 400 t + 399` of the
  result.  Row `400 t + q` of that block is, for `q < 200`, the first adjacency band's row `q` — row
  `400 t + q` of the adjacency matrix — times the product of the feature and weight matrices, plus the bias,
  clipped below at zero; for `q ≥ 200` the second band's row `q − 200`, which is again row `400 t + q` of the
  adjacency matrix.  Every block is therefore the block of ONE function of the arguments (`result`), the 25
  blocks tile the result array, and so the array ends holding that function: the graph-convolution layer
  `max (A · (X · W) + b, 0)` entry by entry.
-/
import proofs.«160612_g22643067584884_cont_sun_m_966_7_alg».proof.Proof.KernelIdeal.Launch
import proofs.«160612_g22643067584884_cont_sun_m_966_7_alg».proof.Proof.KernelIdeal.OutputBlock
import proofs.«160612_g22643067584884_cont_sun_m_966_7_alg».proof.Proof.KernelIdeal.BlockRows
import proofs.«160612_g22643067584884_cont_sun_m_966_7_alg».proof.Proof.KernelPayloads
import proofs.«160612_g22643067584884_cont_sun_m_966_7_alg».proof.Proof.Spec

set_option maxRecDepth 16384

noncomputable section

namespace Cert.KernelIdeal.Frame

open Cert.KernelIdeal Cert.KernelIdeal.Gen
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The layer of the four argument arrays as launched: features, adjacency, weights, bias. -/
def result (c : Dev nD) : Buf (Elt Ideal) ((c : Thread nD τ).loc main_v0) :=
  Cert.GraphConv.layer (m ((c : Thread nD τ).loc main_arg0)) (m ((c : Thread nD τ).loc main_arg1))
    (m ((c : Thread nD τ).loc main_arg2)) (m ((c : Thread nD τ).loc main_arg3))

/-- The output window's index map, decided over the grid: block `t` of the rows, the one block of the columns. -/
theorem index5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)

/-- The feature block and the weight block are the whole arrays. -/
theorem block0_is (c : Dev nD) (t : Fin cfg0.N) : (block m c 0 t : Vec Ideal S10000x128 .f32) = m ((c : Thread nD τ).loc main_arg0) :=
  funext fun i => by
    obtain ⟨k, l, rfl⟩ : ∃ (k : Fin 10000) (l : Fin 128), i = ix2 k l := ⟨i 0, i 1, eq_ix2 i⟩
    exact block0_apply m c t k l
theorem block1_is (c : Dev nD) (t : Fin cfg0.N) : (block m c 1 t : Vec Ideal S128x128 .f32) = m ((c : Thread nD τ).loc main_arg2) :=
  funext fun i => by
    obtain ⟨k, l, rfl⟩ : ∃ (k : Fin 128) (l : Fin 128), i = ix2 k l := ⟨i 0, i 1, eq_ix2 i⟩
    exact block1_apply m c t k l

/-- What point `t` writes back is block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after5, outAt_is, block0_is, block1_is]
  funext y
  obtain ⟨q, j, rfl⟩ : ∃ (q : Fin 400) (j : Fin 128), y = ix2 q j := ⟨y 0, y 1, eq_ix2 y⟩
  have ht : t.val < 25 := lt_of_lt_of_eq t.isLt cfg0_N
  obtain ⟨i0, i1⟩ := index5 t
  have e : ((cfg0.win 5).blk t).view.emb (ix2 q j) = ix2 (⟨400 * t.val + q.val, by have := q.isLt; omega⟩ : Fin 10000) j :=
    funext fun a => Fin.ext (by
      match a with
      | ⟨0, _⟩ => show win0_5.index t (0 : Fin 2) * 400 + 1 * q.val = 400 * t.val + q.val; rw [i0]; omega
      | ⟨1, _⟩ => show win0_5.index t (1 : Fin 2) * 128 + 1 * j.val = j.val; rw [i1]; omega)
  show twoHalves _ _ _ _ (ix2 q j) = result m c (((cfg0.win 5).blk t).view.emb (ix2 q j))
  rw [e]
  unfold result
  by_cases hq : q.val < 200
  · rw [twoHalves_upper _ _ _ _ ⟨q.val, hq⟩ j q rfl]
    exact Cert.GraphConv.half_layer _ _ _ _ _ _ _ ⟨q.val, hq⟩ j
      (fun k => block2_apply m c t ⟨q.val, hq⟩ k _ rfl) (block4_apply m c t j)
  · rw [twoHalves_lower _ _ _ _ ⟨q.val - 200, by have := q.isLt; omega⟩ j q (by show q.val = 200 + (q.val - 200); omega)]
    exact Cert.GraphConv.half_layer' _ _ _ _ _ _ _ ⟨q.val - 200, by have := q.isLt; omega⟩ j
      (fun k => block3_apply m c t ⟨q.val - 200, by have := q.isLt; omega⟩ k _ (by show 400 * t.val + q.val = 400 * t.val + 200 + (q.val - 200); omega)) (block4_apply m c t j)

/-- An index of the result array is in point `t`'s block iff each coordinate is in the block's range. -/
theorem mem_blk5 (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

/-- Row `r` of the result array lies in the block of point `r / 400`. -/
theorem cover5 (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 25 := cfg0_N
  let t : Fin cfg0.N := ⟨(i 0).val / 400, by omega⟩
  obtain ⟨e0, e1⟩ := index5 t
  refine ⟨t, flush0_5 t, ?_⟩
  rw [mem_blk5]
  intro a
  match a with
  | ⟨0, _⟩ => show win0_5.index t (0 : Fin 2) * 400 ≤ (i 0).val ∧ (i 0).val < win0_5.index t (0 : Fin 2) * 400 + 400
              rw [e0]; show (i 0).val / 400 * 400 ≤ (i 0).val ∧ (i 0).val < (i 0).val / 400 * 400 + 400; omega
  | ⟨1, _⟩ => show win0_5.index t (1 : Fin 2) * 128 ≤ (i 1).val ∧ (i 1).val < win0_5.index t (1 : Fin 2) * 128 + 128
              rw [e1]; omega

/-- The result array ends holding the layer of the arguments. -/
theorem final (c : Dev nD) : (dats m 0 c).arrAt 5 cfg0.N = result m c :=
  (dats m 0 c).arrAt_eq_of_cover 5 (result m c) (fun t _ => flushed_eq m c t) cover5

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 5).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)

end Cert.KernelIdeal.Frame

end
-- ==== Proof.ReferenceValue.lean ====
import proofs.«160612_g22643067584884_cont_sun_m_966_7_alg».proof.Proof.Gen.ReferenceIdeal.Read
import proofs.«160612_g22643067584884_cont_sun_m_966_7_alg».proof.Proof.Spec

/-!
# The reference program computes the layer

The reference forms `X · W`, then `A · (X · W)`, adds the bias broadcast along the rows and takes the
maximum with a zero splat. Read at an index `i = (r, j)` each stage names the operand entries it
uses; those index functions are, coordinate by coordinate, the pairs `(r, k)`, `(k, j)`, `(k, l)`,
`(l, j)` and the single coordinate `j` of the bias. With the stages chained, outermost first, the
reference's entry is literally the entry of `Cert.GraphConv.layer`.
-/

noncomputable section

namespace Cert.GraphConv

open Idealize.ShloMosaic Idealize.ShloMosaic.ValueIdx Cert.ReferenceIdeal Cert.ReferenceIdeal.Read

/-- The outer product reads `A` at (row of `i`, `k`) … -/
theorem lidx_outer (i : S10000x128.Idx) (k : Fin 10000) : lidx_main_v1 i k = ix2 (i 0 : Fin 10000) k :=
  funext fun a => by match a with | ⟨0, _⟩ => rfl | ⟨1, _⟩ => rfl

/-- … and `X · W` at (`k`, column of `i`); coordinate by coordinate this one computes, which is how it
    is used below. -/
theorem ridx_outer (i : S10000x128.Idx) (k : Fin 10000) : ridx_main_v1 i k = ix2 k (i 1 : Fin 128) :=
  funext fun a => by match a with | ⟨0, _⟩ => rfl | ⟨1, _⟩ => rfl

/-- The inner product at `i` reads `X` at (row of `i`, `l`) … -/
theorem lidx_inner (i : S10000x128.Idx) (l : Fin 128) : lidx_main_v0 i l = ix2 (i 0 : Fin 10000) l :=
  funext fun a => by match a with | ⟨0, _⟩ => rfl | ⟨1, _⟩ => rfl

/-- … and `W` at (`l`, column of `i`). -/
theorem ridx_inner (i : S10000x128.Idx) (l : Fin 128) : ridx_main_v0 i l = ix2 l (i 1 : Fin 128) :=
  funext fun a => by match a with | ⟨0, _⟩ => rfl | ⟨1, _⟩ => rfl

/-- The bias, broadcast to one row and then along the rows, is read at the column of `i`. -/
theorem idx_bias (i : S10000x128.Idx) : idx_main_v2 (idx_main_v3 i) = ix1 (i 1 : Fin 128) :=
  funext fun a => by match a with | ⟨0, _⟩ => rfl

/-- The reference's result is the layer, entry by entry. -/
theorem reference_is_layer (x0 : (⟨S10000x128, .f32⟩ : BufTy).Contents (Elt Ideal))
    (x1 : (⟨S10000x10000, .f32⟩ : BufTy).Contents (Elt Ideal)) (x2 : (⟨S128x128, .f32⟩ : BufTy).Contents (Elt Ideal))
    (x3 : (⟨S128, .f32⟩ : BufTy).Contents (Elt Ideal)) :
    Cert.ReferenceIdeal.Read.val_main_v5 (F := Ideal) x0 x1 x2 x3 = layer x0 x1 x2 x3 := by
  funext i
  rw [val_main_v5_apply, val_main_v4_apply, val_main_v1_apply, val_main_v3_apply, val_main_v2_apply,
    val_main_call0_v0_apply, val_main_call0_cst_apply]
  simp only [val_main_v0_apply, lidx_inner, ridx_inner]
  simp only [lidx_outer, idx_bias, Ideal.maximumf_def, Ideal.addf_def, Ideal.ofBits_def]
  -- what is left differs from the layer's entry only in the inner product's index `(k, j)`, written
  -- through its two coordinates, which compute
  rfl

end Cert.GraphConv

end
-- ==== Proof.lean ====
/-
  A graph-convolution layer, `max (A · (X · W) + b, 0)` over f32[10000, 128] features `X`, a dense
  f32[10000, 10000] adjacency matrix `A`, f32[128, 128] weights `W` and a bias `b`, computed by ONE kernel on a
  grid of 25 points against the same layer written with two whole matrix products.

  The kernel multiplies `X` by `W` once, at the first grid point, into a scratch it keeps for the rest of the
  grid; at every point it multiplies two 200-row bands of `A` by that product, adds the bias row, clips below at
  zero, and stores the two half blocks of a 400-row output block, which the pipeline writes back.  The two bands
  are two windows on the one array `A`, each holding half of its share.

  At the ideal instance both programs are, entry by entry, `max (∑ₖ A[r,k] · (∑ₗ X[k,l] · W[l,j]) + b[j], 0)` on
  the extended reals, with the same grouping of the two sums on both sides: no law of arithmetic beyond reading
  each operation at an index joins them, and the precondition is never opened.

  The three frames: the kernel's, at either instance, is its run (`Frame.frame`: the body meets the proof data
  at every point; the launch deals the adjacency matrix's share between its two windows); the reference's is its
  generated run with the result dropped.  The ideal pass rewrote nothing, so the idealization claim is trivial.
  The value claim puts the kernel's run, read (`Frame.run`: the result array ends holding the layer of the
  arguments), beside the reference's generated run, read one operation at a time (`reference_is_layer`).
-/
import proofs.«160612_g22643067584884_cont_sun_m_966_7_alg».proof.Defs
import proofs.«160612_g22643067584884_cont_sun_m_966_7_alg».proof.Proof.Gen.Kernel
import proofs.«160612_g22643067584884_cont_sun_m_966_7_alg».proof.Proof.Gen.KernelIdeal
import proofs.«160612_g22643067584884_cont_sun_m_966_7_alg».proof.Proof.Gen.ReferenceIdeal
import proofs.«160612_g22643067584884_cont_sun_m_966_7_alg».proof.Proof.Gen.Pre_finite_inputs
import proofs.«160612_g22643067584884_cont_sun_m_966_7_alg».proof.Proof.Gen.ReferenceIdeal.Run
import proofs.«160612_g22643067584884_cont_sun_m_966_7_alg».proof.Proof.Gen.ReferenceIdeal.Read
import proofs.«160612_g22643067584884_cont_sun_m_966_7_alg».proof.Proof.Kernel.Launch
import proofs.«160612_g22643067584884_cont_sun_m_966_7_alg».proof.Proof.KernelIdeal.Final
import proofs.«160612_g22643067584884_cont_sun_m_966_7_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Frame.frame m ρ
theorem frame_ideal : Cert.frame_KernelIdeal := fun m ρ _ => Cert.KernelIdeal.Frame.frame m ρ
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments the kernel's result array ends at the layer of its arguments
    and the reference's at the same layer of its own: one function of equal arguments. -/
theorem algebraic : Cert.algebraic_KernelIdeal_ReferenceIdeal := by
  intro m ρ m' ρ' _ hagree
  refine ⟨fun c => Cert.KernelIdeal.Frame.result m c, Cert.KernelIdeal.Frame.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.GraphConv.reference_is_layer,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
